-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1028 : Shape := ⟨2, ![1024, 1028]⟩
abbrev S1028x128 : Shape := ⟨2, ![1028, 128]⟩
abbrev S128 : Shape := ⟨1, ![128]⟩
abbrev S_ : Shape := ⟨0, ![]⟩

class Facts : Prop where
  bcast_S_S1024x1028 : S_.BroadcastsInDim S1024x1028 (![] : Fin 0 → Fin S1024x1028.rank)
  reducesTo_S1024x1028_S_d0_1 : S1024x1028.ReducesTo [0, 1] S_
  h_S_ : 0 < S_.numel
  bcast_S_S1028x128 : S_.BroadcastsInDim S1028x128 (![] : Fin 0 → Fin S1028x128.rank)
  reducesTo_S1028x128_S_d0_1 : S1028x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1024x1028 .f32) (main_arg1 : FVec F S1028x128 .f32) (main_arg2 : FVec F S1028x128 .f32) (main_arg3 : FVec F S128 .f32) (main_arg4 : FVec F S128 .f32) : IVec S_ 1 :=
  let main_v0 : FVec F S1024x1028 .f32 := Host.absf main_arg0
  let main_cst : FVec F S_ .f32 := constant S_ .f32 0x7F800000#32
  let main_v1 : FVec F S1024x1028 .f32 := broadcastInDim S1024x1028 ![] bcast_S_S1024x1028 main_cst
  let main_v2 : IVec S1024x1028 1 := cmpf .olt main_v0 main_v1
  let main_c : IVec S_ 1 := constantI S_ 1 1#1
  let main_v3 : IVec S_ 1 := (fun x v => Host.reduce IntOp.andi x v reducesTo_S1024x1028_S_d0_1 h_S_) main_v2 main_c
  let main_v4 : FVec F S1028x128 .f32 := Host.absf main_arg1
  let main_cst_0 : FVec F S_ .f32 := constant S_ .f32 0x7F800000#32
  let main_v5 : FVec F S1028x128 .f32 := broadcastInDim S1028x128 ![] bcast_S_S1028x128 main_cst_0
  let main_v6 : IVec S1028x128 1 := cmpf .olt main_v4 main_v5
  let main_c_1 : IVec S_ 1 := constantI S_ 1 1#1
  let main_v7 : IVec S_ 1 := (fun x v => Host.reduce IntOp.andi x v reducesTo_S1028x128_S_d0_1 h_S_) main_v6 main_c_1
  let main_v8 : IVec S_ 1 := andi main_v3 main_v7
  let main_v9 : FVec F S1028x128 .f32 := Host.absf main_arg2
  let main_cst_2 : FVec F S_ .f32 := constant S_ .f32 0x7F800000#32
  let main_v10 : FVec F S1028x128 .f32 := broadcastInDim S1028x128 ![] bcast_S_S1028x128 main_cst_2
  let main_v11 : IVec S1028x128 1 := cmpf .olt main_v9 main_v10
  let main_c_3 : IVec S_ 1 := constantI S_ 1 1#1
  let main_v12 : IVec S_ 1 := (fun x v => Host.reduce IntOp.andi x v reducesTo_S1028x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1024x1028 : Shape := ⟨2, ![1024, 1028]⟩
abbrev S1028x128 : Shape := ⟨2, ![1028, 128]⟩
abbrev S128 : Shape := ⟨1, ![128]⟩
abbrev S1x128 : Shape := ⟨2, ![1, 128]⟩
abbrev S1024x1028x128 : Shape := ⟨3, ![1024, 1028, 128]⟩
abbrev S32x1028 : Shape := ⟨2, ![32, 1028]⟩
abbrev S32x1028x128 : Shape := ⟨3, ![32, 1028, 128]⟩
abbrev S1x1028 : Shape := ⟨2, ![1, 1028]⟩
abbrev S1028 : Shape := ⟨1, ![1028]⟩
abbrev S1028x1 : Shape := ⟨2, ![1028, 1]⟩
abbrev S1x1028x128 : Shape := ⟨3, ![1, 1028, 128]⟩

abbrev nBuf : Space → Nat
  | .hbm => 8
  | .vmem => 8
  | .smem => 0
  | _ => 0

abbrev bufTy : (tb : Table) → Fin (tcTables nBuf tb) → BufTy
  | .hbm, ⟨0, _⟩ => ⟨S1024x1028, .f32⟩
  | .hbm, ⟨1, _⟩ => ⟨S1028x128, .f32⟩
  | .hbm, ⟨2, _⟩ => ⟨S1028x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S1024x1028x128, .f32⟩
  | .local _ .vmem, ⟨0, _⟩ => ⟨S32x1028, .f32⟩
  | .local _ .vmem, ⟨1, _⟩ => ⟨S32x1028, .f32⟩
  | .local _ .vmem, ⟨2, _⟩ => ⟨S1028x128, .f32⟩
  | .local _ .vmem, ⟨3, _⟩ => ⟨S1028x128, .f32⟩
  | .local _ .vmem, ⟨4, _⟩ => ⟨S1x128, .f32⟩
  | .local _ .vmem, ⟨5, _⟩ => ⟨S1x128, .f32⟩
  | .local _ .vmem, ⟨6, _⟩ => ⟨S32x1028x128, .f32⟩
  | .local _ .vmem, ⟨7, _⟩ => ⟨S32x1028x128, .f32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v7 : Index := Scalar.indexCast arg7
  let c0_8 : Index := 0#32
  ![v7.toNat, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v34 : Index := Scalar.indexCast arg7
  let c0_13 : Index := 0#32
  let c0_14 : Index := 0#32
  ![v34.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1028x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1028x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1028x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S1028x128_S1028x128_0_0 : ∀ a, (![0, 0] : Fin 2 → Nat) a + S1028x128.size a ≤ S1028x128.size a
  h_S1028x128 : 0 < S1028x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S1x1028 : 0 < S1x1028.numel
  shapeCasts_S1x1028_S1028 : S1x1028.ShapeCasts S1028
  shapeCasts_S1028_S1028x1 : S1028.ShapeCasts S1028x1
  broadcasts_S1028x1_S1028x128 : S1028x1.Broadcasts S1028x128
  reduces_S1028x128_S1028 : S1028x128.Reduces [1] S1028
  broadcasts_S1x128_S1028x128 : S1x128.Broadcasts S1028x128
  h_S1x1028x128 : 0 < S1x1028x128.numel
  shapeCasts_S1x1028x128_S1028x128 : S1x1028x128.ShapeCasts S1028x128
  shapeCasts_S1028x128_S1x1028x128 : S1028x128.ShapeCasts S1x1028x128
  hrank0 : 0 < grid0.rank
  k0_t1_ok : k0_t1_loop.OK
  k0_off1_inb : ∀ k0_t1 : Fin k0_t1_loop.trips, ∀ a, (k0_off1 k0_t1) a + S1x1028.size a ≤ S32x1028.size a
  k0_off2_inb : ∀ k0_t1 : Fin k0_t1_loop.trips, ∀ a, (k0_off2 k0_t1) a + S1x1028x128.size a ≤ S32x1028x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1028.size a ≤ S1024x1028.size a
  hwx0_0 : ∀ i : grid0.Coords, EltTy.bits .f32 = 32 ∨ (Rect.block (s := S1024x1028) S32x1028.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1028x128.size a ≤ S1028x128.size a
  hwx0_1 : ∀ i : grid0.Coords, EltTy.bits .f32 = 32 ∨ (Rect.block (s := S1028x128) S1028x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1028x128.size a ≤ S1028x128.size a
  hwx0_2 : ∀ i : grid0.Coords, EltTy.bits .f32 = 32 ∨ (Rect.block (s := S1028x128) S1028x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1028x128.size a ≤ S1024x1028x128.size a
  hwx0_5 : ∀ i : grid0.Coords, EltTy.bits .f32 = 32 ∨ (Rect.block (s := S1024x1028x128) S32x1028x128.size (cc0_transform_5 i) (hinb0_5 i)).WholeWords (EltTy.packing .f32)

variable [Facts₀]

abbrev win0_0 : Pipeline.Window sig grid0 :=
  Pipeline.Window.ofSpec (Memref.whole main_arg0) S32x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1028x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1028x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x1028x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1028 : Shape := ⟨2, ![1024, 1028]⟩
abbrev S1028x128 : Shape := ⟨2, ![1028, 128]⟩
abbrev S128 : Shape := ⟨1, ![128]⟩
abbrev S1024x1028x1 : Shape := ⟨3, ![1024, 1028, 1]⟩
abbrev S1x1028x128 : Shape := ⟨3, ![1, 1028, 128]⟩
abbrev S1024x1028x128 : Shape := ⟨3, ![1024, 1028, 128]⟩
abbrev S_ : Shape := ⟨0, ![]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S1024x1028, .f32⟩
  | .hbm, ⟨1, _⟩ => ⟨S1028x128, .f32⟩
  | .hbm, ⟨2, _⟩ => ⟨S1028x128, .f32⟩
  | .hbm, ⟨3, _⟩ => ⟨S128, .f32⟩
  | .hbm, ⟨4, _⟩ => ⟨S128, .f32⟩
  | .hbm, ⟨5, _⟩ => ⟨S1024x1028x1, .f32⟩
  | .hbm, ⟨6, _⟩ => ⟨S1x1028x128, .f32⟩
  | .hbm, ⟨7, _⟩ => ⟨S1024x1028x128, .f32⟩
  | .hbm, ⟨8, _⟩ => ⟨S1024x1028x128, .f32⟩
  | .hbm, ⟨9, _⟩ => ⟨S1024x1028x128, .f32⟩
  | .hbm, ⟨10, _⟩ => ⟨S1x1028x128, .f32⟩
  | .hbm, ⟨11, _⟩ => ⟨S1024x1028x128, .f32⟩
  | .hbm, ⟨12, _⟩ => ⟨S1024x1028x128, .f32⟩
  | .hbm, ⟨13, _⟩ => ⟨S_, .f32⟩
  | .hbm, ⟨14, _⟩ => ⟨S1024x1028, .f32⟩
  | .hbm, ⟨15, _⟩ => ⟨S1024x1028x1, .f32⟩
  | .hbm, ⟨16, _⟩ => ⟨S_, .f32⟩
  | .hbm, ⟨17, _⟩ => ⟨S1024x1028x1, .f32⟩
  | .hbm, ⟨18, _⟩ => ⟨S1024x1028x1, .f32⟩
  | .hbm, ⟨19, _⟩ => ⟨S1024x1028x128, .f32⟩
  | .hbm, ⟨20, _⟩ => ⟨S1024x1028x128, .f32⟩
  | .hbm, ⟨21, _⟩ => ⟨S1024x1028x128, .f32⟩
  | .hbm, ⟨22, _⟩ => ⟨S_, .f32⟩
  | .hbm, ⟨23, _⟩ => ⟨S1024x1028, .f32⟩
  | .hbm, ⟨24, _⟩ => ⟨S1024x1028x1, .f32⟩
  | .hbm, ⟨25, _⟩ => ⟨S_, .f32⟩
  | .hbm, ⟨26, _⟩ => ⟨S1024x1028x1, .f32⟩
  | .hbm, ⟨27, _⟩ => ⟨S1024x1028x1, .f32⟩
  | .hbm, ⟨28, _⟩ => ⟨S1024x1028x128, .f32⟩
  | .hbm, ⟨29, _⟩ => ⟨S1024x1028x128, .f32⟩
  | .hbm, ⟨30, _⟩ => ⟨S_, .f32⟩
  | .hbm, ⟨31, _⟩ => ⟨S1024x1028x1, .f32⟩
  | .hbm, ⟨32, _⟩ => ⟨S1024x1028x1, .f32⟩
  | .hbm, ⟨33, _⟩ => ⟨S1024x1028x1, .f32⟩
  | .hbm, ⟨34, _⟩ => ⟨S1024x1028x128, .f32⟩
  | .hbm, ⟨35, _⟩ => ⟨S1024x1028x128, .f32⟩
  | .hbm, ⟨36, _⟩ => ⟨S1x1x128, .f32⟩
  | .hbm, ⟨37, _⟩ => ⟨S1024x1028x128, .f32⟩
  | .hbm, ⟨38, _⟩ => ⟨S1024x1028x128, .f32⟩
  | .hbm, ⟨39, _⟩ => ⟨S1x1x128, .f32⟩
  | .hbm, ⟨40, _⟩ => ⟨S1024x1028x128, .f32⟩
  | .hbm, ⟨41, _⟩ => ⟨S1024x1028x128, .f32⟩
  | _, _ => ⟨S1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S1024x1028_S1024x1028x1_0_1 : S1024x1028.BroadcastsInDim S1024x1028x1 (![0, 1] : Fin 2 → Fin S1024x1028x1.rank)
  bcast_S1028x128_S1x1028x128_1_2 : S1028x128.BroadcastsInDim S1x1028x128 (![1, 2] : Fin 2 → Fin S1x1028x128.rank)
  bcast_S1024x1028x1_S1024x1028x128_0_1_2 : S1024x1028x1.BroadcastsInDim S1024x1028x128 (![0, 1, 2] : Fin 3 → Fin S1024x1028x128.rank)
  bcast_S1x1028x128_S1024x1028x128_0_1_2 : S1x1028x128.BroadcastsInDim S1024x1028x128 (![0, 1, 2] : Fin 3 → Fin S1024x1028x128.rank)
  reducesTo_S1024x1028x128_S1024x1028_d2 : S1024x1028x128.ReducesTo [2] S1024x1028
  h_S_ : 0 < S_.numel
  bcast_S_S1024x1028x1 : S_.BroadcastsInDim S1024x1028x1 (![] : Fin 0 → Fin S1024x1028x1.rank)
  bcast_S128_S1x1x128_2 : S128.BroadcastsInDim S1x1x128 (![2] : Fin 1 → Fin S1x1x128.rank)
  bcast_S1x1x128_S1024x1028x128_0_1_2 : S1x1x128.BroadcastsInDim S1024x1028x128 (![0, 1, 2] : Fin 3 → Fin S1024x1028x128.rank)

variable [Facts₀]

class Facts : Prop extends Facts₀ where

variable [Facts]
-- ==== Proof.Spec.lean ====
/-
  The function both programs compute, over the extended reals.

  For a batch row `r`, a feature `f` and an embedding coordinate `d`, the embedding is
  `e k = x (r, f) · W (f, k) + b (f, k)` for `k` in the 128 coordinates; the result is that row of 128 numbers
  normalised: with `μ = (Σ e) / 128` and `σ² = (Σ (e − μ)²) / 128`,
  `(e d − μ) · rsqrt (σ² + ε) · γ d + β d`. The two float literals (128 and ε) are kept as the binary words the programs
  spell; both programs spell the same words, so their values are never needed.
-/
import Idealize.ShloMosaic.PureOps.Ideal
import Idealize.ShloMosaic.Lib.ValueIdx

noncomputable section

namespace Cert.EmbedNorm

open Idealize.ShloMosaic Idealize.ShloMosaic.ValueIdx
open scoped BigOperators

/-- The mean of 128 extended reals: their sum divided by the literal 128.0. -/
def rowMean (e : Fin 128 → EReal) : EReal :=
  Ideal.div (∑ k : Fin 128, e k) (Ideal.ofBits .f32 0x43000000#32)

/-- One row of 128 numbers, normalised to mean 0 and variance 1 (up to ε), scaled by `g` and shifted by `bt`, at coordinate `d`. -/
def rowNorm (e g bt : Fin 128 → EReal) (d : Fin 128) : EReal :=
  (e d - rowMean e) * Ideal.rsqrt (rowMean (fun k => (e k - rowMean e) * (e k - rowMean e)) + Ideal.ofBits .f32 0x3727C5AC#32)
    * g d + bt d

/-- The embedding of the scalar `xv` by feature `f`'s weight and bias rows. -/
def embRow (xv : EReal) (W b : (⟨2, ![1028, 128]⟩ : Shape).Idx → EReal) (f : Fin 1028) : Fin 128 → EReal :=
  fun k => xv * W (ix2 f k) + b (ix2 f k)

/-- The result at batch row `r`, feature `f`, coordinate `d`. -/
def resultAt (x : (⟨2, ![1024, 1028]⟩ : Shape).Idx → EReal) (W b : (⟨2, ![1028, 128]⟩ : Shape).Idx → EReal)
    (g bt : (⟨1, ![128]⟩ : Shape).Idx → EReal) (r : Fin 1024) (f : Fin 1028) (d : Fin 128) : EReal :=
  rowNorm (embRow (x (ix2 r f)) W b f) (fun k => g (ix1 k)) (fun k => bt (ix1 k)) d

/-- The whole result array. -/
def result (x : (⟨2, ![1024, 1028]⟩ : Shape).Idx → EReal) (W b : (⟨2, ![1028, 128]⟩ : Shape).Idx → EReal)
    (g bt : (⟨1, ![128]⟩ : Shape).Idx → EReal) : (⟨3, ![1024, 1028, 128]⟩ : Shape).Idx → EReal :=
  fun i => resultAt x W b g bt (i 0) (i 1) (i 2)

theorem result_ix3 (x : (⟨2, ![1024, 1028]⟩ : Shape).Idx → EReal) (W b : (⟨2, ![1028, 128]⟩ : Shape).Idx → EReal)
    (g bt : (⟨1, ![128]⟩ : Shape).Idx → EReal) (r : Fin 1024) (f : Fin 1028) (d : Fin 128) :
    result x W b g bt (ix3 r f d) = resultAt x W b g bt r f d := rfl

end Cert.EmbedNorm

end
-- ==== Proof.RefResult.lean ====
/-
  The reference's result term is `EmbedNorm.result` of its arguments.

  The reference computes the embedding `x · W + b` on the whole [1024, 1028, 128] array, sums it and its squared deviation over the
  last axis (each sum from the initial value 0), divides each by 128, and normalises. Read at an index `(r, f, d)`, every
  broadcast reads one entry of its operand and each sum runs over the 128 entries `(r, f, k)`: the 128 numbers of the
  specification's row, so the stages are, in order, the row `e`, its mean `μ`, the deviations `e − μ`, the variance, the
  reciprocal standard deviation, and the scaled and shifted result.
-/
import proofs.«109697_j79302276153442_2_alg».proof.Proof.Gen.ReferenceIdeal.Read
import proofs.«109697_j79302276153442_2_alg».proof.Proof.Spec

noncomputable section

namespace Cert.EmbedNorm.Ref

open Cert.ReferenceIdeal Cert.ReferenceIdeal.Read Idealize.ShloMosaic Idealize.ShloMosaic.ValueIdx Cert.EmbedNorm
open scoped BigOperators

variable (x0 : (⟨S1024x1028, .f32⟩ : BufTy).Contents (Elt Ideal)) (x1 x2 : (⟨S1028x128, .f32⟩ : BufTy).Contents (Elt Ideal))
  (x3 x4 : (⟨S128, .f32⟩ : BufTy).Contents (Elt Ideal))

/-- The embedding stage at `(r, f, k)` is entry `k` of the specification's row. -/
theorem emb_at (r : Fin 1024) (f : Fin 1028) (k : Fin 128) :
    val_main_v7 (F := Ideal) x0 x1 x2 (ix3 r f k) = embRow (x0 (ix2 r f)) x1 x2 f k := by
  rw [val_main_v7_apply, val_main_v4_apply, val_main_v2_apply, val_main_v0_apply, val_main_v3_apply, val_main_v1_apply,
    val_main_v6_apply, val_main_v5_apply]
  have e0 : idx_main_v0 (idx_main_v2 (ix3 r f k)) = ix2 r f :=
    funext fun a => Fin.ext (by match a with | ⟨0, _⟩ => rfl | ⟨1, _⟩ => rfl)
  have e1 : idx_main_v1 (idx_main_v3 (ix3 r f k)) = ix2 f k :=
    funext fun a => Fin.ext (by match a with | ⟨0, _⟩ => rfl | ⟨1, _⟩ => rfl)
  have e2 : idx_main_v5 (idx_main_v6 (ix3 r f k)) = ix2 f k :=
    funext fun a => Fin.ext (by match a with | ⟨0, _⟩ => rfl | ⟨1, _⟩ => rfl)
  rw [e0, e1, e2]
  rfl

/-- The first mean, kept as a column: at `(r, f, u)` it is the mean of the row. -/
theorem mean_at (r : Fin 1024) (f : Fin 1028) (u : Fin 1) :
    val_main_v11 (F := Ideal) x0 x1 x2 (ix3 r f u) = rowMean (embRow (x0 (ix2 r f)) x1 x2 f) := by
  rw [val_main_v11_apply, val_main_v9_apply, val_main_v8_apply, val_main_v10_apply, val_main_cst_0_apply, val_main_cst_apply]
  simp only [Ideal.hostDivf_def, Ideal.ofBits_def, Ideal.ofBits_zero_f32, zero_add]
  unfold rowMean
  refine congrArg (Ideal.div · _) (Finset.sum_congr rfl fun k _ => ?_)
  have e : idx_main_v8 (idx_main_v9 (ix3 r f u)) k = ix3 r f k :=
    funext fun a => Fin.ext (by match a with | ⟨0, _⟩ => rfl | ⟨1, _⟩ => rfl | ⟨2, _⟩ => rfl)
  rw [e, emb_at]

/-- The deviation `e k − μ`, as the variance's operand (the first of the reference's two subtractions). -/
theorem dev_at (r : Fin 1024) (f : Fin 1028) (k : Fin 128) :
    val_main_v13 (F := Ideal) x0 x1 x2 (ix3 r f k)
      = embRow (x0 (ix2 r f)) x1 x2 f k - rowMean (embRow (x0 (ix2 r f)) x1 x2 f) := by
  rw [val_main_v13_apply, val_main_v12_apply, emb_at]
  have e : idx_main_v12 (ix3 r f k) = ix3 r f (0 : Fin 1) :=
    funext fun a => Fin.ext (by match a with | ⟨0, _⟩ => rfl | ⟨1, _⟩ => rfl | ⟨2, _⟩ => rfl)
  rw [e, mean_at]
  rfl

/-- The same deviation, as the result's operand (the second subtraction). -/
theorem dev2_at (r : Fin 1024) (f : Fin 1028) (k : Fin 128) :
    val_main_v20 (F := Ideal) x0 x1 x2 (ix3 r f k)
      = embRow (x0 (ix2 r f)) x1 x2 f k - rowMean (embRow (x0 (ix2 r f)) x1 x2 f) := by
  rw [val_main_v20_apply, val_main_v19_apply, emb_at]
  have e : idx_main_v19 (ix3 r f k) = ix3 r f (0 : Fin 1) :=
    funext fun a => Fin.ext (by match a with | ⟨0, _⟩ => rfl | ⟨1, _⟩ => rfl | ⟨2, _⟩ => rfl)
  rw [e, mean_at]
  rfl

/-- The reciprocal standard deviation, kept as a column. -/
theorem rstd_at (r : Fin 1024) (f : Fin 1028) (u : Fin 1) :
    val_main_v23 (F := Ideal) x0 x1 x2 (ix3 r f u)
      = Ideal.rsqrt (rowMean (fun k => (embRow (x0 (ix2 r f)) x1 x2 f k - rowMean (embRow (x0 (ix2 r f)) x1 x2 f))
            * (embRow (x0 (ix2 r f)) x1 x2 f k - rowMean (embRow (x0 (ix2 r f)) x1 x2 f)))
          + Ideal.ofBits .f32 0x3727C5AC#32) := by
  rw [val_main_v23_apply, val_main_v22_apply, val_main_v18_apply, val_main_v16_apply, val_main_v15_apply, val_main_v17_apply,
    val_main_cst_2_apply, val_main_cst_1_apply, val_main_v21_apply, val_main_cst_3_apply]
  simp only [Ideal.hostDivf_def, Ideal.ofBits_def, Ideal.ofBits_zero_f32, zero_add, Ideal.hostUnary_rsqrt_def, Ideal.addf_def]
  unfold rowMean
  refine congrArg (fun s => Ideal.rsqrt (Ideal.div s _ + _)) (Finset.sum_congr rfl fun k _ => ?_)
  have e : idx_main_v15 (idx_main_v16 (ix3 r f u)) k = ix3 r f k :=
    funext fun a => Fin.ext (by match a with | ⟨0, _⟩ => rfl | ⟨1, _⟩ => rfl | ⟨2, _⟩ => rfl)
  rw [e, val_main_v14_apply, dev_at]
  rfl

/-- The reference's result stage is the specification, index by index. -/
theorem result_eq : val_main_v31 (F := Ideal) x0 x1 x2 x3 x4 = result x0 x1 x2 x3 x4 := by
  funext i
  obtain ⟨r, f, d, rfl⟩ : ∃ (r : Fin 1024) (f : Fin 1028) (d : Fin 128), i = ix3 r f d := ⟨i 0, i 1, i 2, eq_ix3 i⟩
  rw [result_ix3, val_main_v31_apply, val_main_v28_apply, val_main_v25_apply, dev2_at, val_main_v24_apply,
    val_main_v27_apply, val_main_v26_apply, val_main_v30_apply, val_main_v29_apply]
  have e : idx_main_v24 (ix3 r f d) = ix3 r f (0 : Fin 1) :=
    funext fun a => Fin.ext (by match a with | ⟨0, _⟩ => rfl | ⟨1, _⟩ => rfl | ⟨2, _⟩ => rfl)
  have e3 : idx_main_v26 (idx_main_v27 (ix3 r f d)) = ix1 d :=
    funext fun a => Fin.ext (by match a with | ⟨0, _⟩ => rfl)
  have e4 : idx_main_v29 (idx_main_v30 (ix3 r f d)) = ix1 d :=
    funext fun a => Fin.ext (by match a with | ⟨0, _⟩ => rfl)
  rw [e, rstd_at, e3, e4]
  rfl

end Cert.EmbedNorm.Ref

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.RowPayload.lean ====
/-
  One loop trip's stored value, read at an index.

  A trip loads one row `v8` of the batch block (1028 numbers), forms `emb (f, k) = v8 f · W (f, k) + b (f, k)` on the whole
  [1028, 128] tile, reduces each of the 1028 lines over its 128 lanes for the mean and again for the variance, and stores the
  normalised, scaled and shifted tile. At `(f, d)` the stored value depends only on line `f` of the tile: it is the
  specification's `rowNorm` of that line. The layout operations (the row as a column repeated along the lanes, the two
  parameter rows repeated along the lines, each line sum kept as a column) each read one entry of their operand.
-/
import proofs.«109697_j79302276153442_2_alg».proof.Proof.Gen.KernelIdeal.Skeleton
import proofs.«109697_j79302276153442_2_alg».proof.Proof.Spec
import proofs.«109697_j79302276153442_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.EmbedNorm.Kern

open Cert.KernelIdeal Cert.KernelIdeal.Gen Idealize.ShloMosaic Idealize.ShloMosaic.ValueIdx Cert.EmbedNorm Cert.Keepdims
open scoped BigOperators

/-- A lane sum of a [1028, 128] tile from the neutral accumulator, at line `f`: the sum of the line's 128 entries. -/
theorem laneSum_at (src : FVec Ideal S1028x128 .f32) (hφ : FTy.f32 = FTy.f32 ∨ FTy.f32 = FTy.bf16)
    (hacc : (0x00000000#32 : BitVec FTy.f32.bits) = 0x00000000#32) (f : Fin 1028) :
    multiReduction .add [1] S1028 src 0x00000000#32 reduces_S1028x128_S1028 hφ hacc (ix1 f)
      = ∑ k : Fin 128, src (ix2 f k) := by
  refine (Ideal.multiReduction_add_single src 0x00000000#32 reduces_S1028x128_S1028 hφ hacc (ix1 f)).trans ?_
  exact Finset.sum_congr rfl fun k _ => congrArg src (funext fun a => Fin.ext (by match a with | ⟨0, _⟩ => rfl | ⟨1, _⟩ => rfl))

/-- A [1028]-vector viewed as a column reads, at `(f, u)`, its entry `f`. -/
theorem vecCol_at (w : FVec Ideal S1028 .f32) (f : Fin 1028) (u : Fin 1) :
    shapeCast S1028x1 w shapeCasts_S1028_S1028x1 (ix2 f u) = w (ix1 f) :=
  shapeCast_a_a1_apply _ _ f u

/-- The loaded [1, 1028] row viewed as a [1028]-vector reads, at `f`, the row's entry `f`. -/
theorem rowVec_at (v8 : FVec Ideal S1x1028 .f32) (f : Fin 1028) :
    shapeCast S1028 v8 shapeCasts_S1x1028_S1028 (ix1 f) = v8 (ix2 (0 : Fin 1) f) :=
  shapeCast_1a_a_apply _ _ f

/-- A [1028, 1] column repeated along the 128 lanes reads, at `(f, k)`, the column's entry of line `f`. -/
theorem col_at (w : FVec Ideal S1028x1 .f32) (f : Fin 1028) (k : Fin 128) :
    broadcastTo S1028x128 w broadcasts_S1028x1_S1028x128 (ix2 f k) = w (ix2 f (0 : Fin 1)) :=
  broadcastTo_a1_ab_apply _ _ f k

/-- A [1, 128] parameter row repeated along the 1028 lines reads, at `(f, k)`, the row's entry `k`. -/
theorem paramRow_at (w : FVec Ideal S1x128 .f32) (f : Fin 1028) (k : Fin 128) :
    broadcastTo S1028x128 (shapeCast S1x128 w shapeCasts_S1x128_S1x128) broadcasts_S1x128_S1028x128 (ix2 f k)
      = w (ix2 (0 : Fin 1) k) := by
  rw [shapeCast_self]
  exact broadcastTo_1b_ab_apply _ _ f k

/-- The reciprocal square root is taken entry by entry. -/
theorem rsqrt_at {s : Shape} (w : FVec Ideal s .f32) (i : s.Idx) : rsqrt w i = Ideal.rsqrt (w i) := rfl

/-! ## The trip's stages, named -/

/-- The embedding tile: the loaded row as a column along the lanes, times the weights, plus the biases. -/
def embTile (v0 v1 : FVec Ideal S1028x128 .f32) (v8 : FVec Ideal S1x1028 .f32) : FVec Ideal S1028x128 .f32 :=
  addf (mulf (broadcastTo S1028x128 (shapeCast S1028x1 (shapeCast S1028 v8 shapeCasts_S1x1028_S1028) shapeCasts_S1028_S1028x1)
    broadcasts_S1028x1_S1028x128) v0) v1

theorem embTile_at (v0 v1 : FVec Ideal S1028x128 .f32) (v8 : FVec Ideal S1x1028 .f32) (f : Fin 1028) (k : Fin 128) :
    embTile v0 v1 v8 (ix2 f k) = embRow (v8 (ix2 (0 : Fin 1) f)) v0 v1 f k := by
  unfold embTile
  rw [addf_apply, mulf_apply, col_at, vecCol_at, rowVec_at]
  rfl

/-- The lines' means kept as a column: each line's lane sum, divided by the literal 128.0. -/
def meanCol (src : FVec Ideal S1028x128 .f32) : FVec Ideal S1028x1 .f32 :=
  divf (shapeCast S1028x1 (multiReduction .add [1] S1028 src 0x00000000#32 reduces_S1028x128_S1028 (.inl rfl) rfl)
    shapeCasts_S1028_S1028x1) (broadcast S1028x1 (Scalar.ofBits .f32 0x43000000#32))

theorem meanCol_at (src : FVec Ideal S1028x128 .f32) (f : Fin 1028) (u : Fin 1) :
    meanCol src (ix2 f u) = rowMean (fun k => src (ix2 f k)) := by
  unfold meanCol
  rw [divf_apply, vecCol_at, laneSum_at, broadcast_apply]
  rfl

/-- A tile with each line's mean subtracted. -/
def centred (src : FVec Ideal S1028x128 .f32) : FVec Ideal S1028x128 .f32 :=
  subf src (broadcastTo S1028x128 (meanCol src) broadcasts_S1028x1_S1028x128)

theorem centred_at (src : FVec Ideal S1028x128 .f32) (f : Fin 1028) (k : Fin 128) :
    centred src (ix2 f k) = src (ix2 f k) - rowMean (fun j => src (ix2 f j)) := by
  unfold centred
  rw [subf_apply, col_at, meanCol_at]

/-- The stored tile: the centred embedding times the reciprocal standard deviation of its line, times γ, plus β. -/
def normTile (v0 v1 : FVec Ideal S1028x128 .f32) (v2 v4 : FVec Ideal S1x128 .f32) (v8 : FVec Ideal S1x1028 .f32) :
    FVec Ideal S1028x128 .f32 :=
  addf (mulf (mulf (centred (embTile v0 v1 v8))
      (broadcastTo S1028x128 (rsqrt (addf (meanCol (mulf (centred (embTile v0 v1 v8)) (centred (embTile v0 v1 v8))))
        (broadcast S1028x1 (Scalar.ofBits .f32 0x3727C5AC#32)))) broadcasts_S1028x1_S1028x128))
      (broadcastTo S1028x128 (shapeCast S1x128 v2 shapeCasts_S1x128_S1x128) broadcasts_S1x128_S1028x128))
    (broadcastTo S1028x128 (shapeCast S1x128 v4 shapeCasts_S1x128_S1x128) broadcasts_S1x128_S1028x128)

theorem normTile_at (v0 v1 : FVec Ideal S1028x128 .f32) (v2 v4 : FVec Ideal S1x128 .f32) (v8 : FVec Ideal S1x1028 .f32)
    (f : Fin 1028) (d : Fin 128) :
    normTile v0 v1 v2 v4 v8 (ix2 f d)
      = rowNorm (embRow (v8 (ix2 (0 : Fin 1) f)) v0 v1 f) (fun k => v2 (ix2 (0 : Fin 1) k)) (fun k => v4 (ix2 (0 : Fin 1) k)) d := by
  unfold normTile
  simp only [addf_apply, mulf_apply, col_at, paramRow_at, rsqrt_at, meanCol_at, centred_at, embTile_at, broadcast_apply]
  rfl

/-- The trip's payload is the stored tile with a leading unit axis. -/
theorem pay_eq (v0 v1 : Vec Ideal S1028x128 .f32) (v2 v4 : Vec Ideal S1x128 .f32) (v8 : Vec Ideal S1x1028 .f32) :
    k0_pay1 (F := Ideal) v0 v1 v2 v4 v8 = shapeCast S1x1028x128 (normTile v0 v1 v2 v4 v8) shapeCasts_S1028x128_S1x1028x128 := rfl

/-- THE STORED TILE AT AN INDEX: entry `(f, d)` of the trip's payload is the specification's normalised line `f`. -/
theorem pay_at (v0 v1 : Vec Ideal S1028x128 .f32) (v2 v4 : Vec Ideal S1x128 .f32) (v8 : Vec Ideal S1x1028 .f32)
    (u : Fin 1) (f : Fin 1028) (d : Fin 128) :
    k0_pay1 (F := Ideal) v0 v1 v2 v4 v8 (ix3 u f d)
      = rowNorm (embRow (v8 (ix2 (0 : Fin 1) f)) v0 v1 f) (fun k => v2 (ix2 (0 : Fin 1) k)) (fun k => v4 (ix2 (0 : Fin 1) k)) d := by
  rw [pay_eq, shapeCast_ab_1ab_apply _ _ u f d, normTile_at]

end Cert.EmbedNorm.Kern

end
-- ==== Proof.BlockPieces.lean ====
/-
  The body's stores are blocks of one function.

  At a grid point the body runs 32 trips; trip `k` loads row `k` of the point's [32, 1028] batch block and stores the normalised
  [1, 1028, 128] tile at offset `(k, 0, 0)` of the [32, 1028, 128] output block. So every store's value at its own index `x` is ONE
  function of the place `(k + x₀, x₁, x₂)` in the output block that `x` names: `blockFn`, the specification's normalised line with
  the batch row taken from the block. The 32 stores tile the output block, hence after the body the block holds `blockFn`
  everywhere.

  The trip's one store and the whole run's list of stores are read off their definitions once each (`trip_piece`,
  `run_pieces`); the rest is an induction over the trips.
-/
import proofs.«109697_j79302276153442_2_alg».proof.Proof.Gen.KernelIdeal.Frame
import proofs.«109697_j79302276153442_2_alg».proof.Proof.RowPayload
import Idealize.ShloMosaic.Lib.Pipeline.Value
import Idealize.ShloMosaic.Lib.Pipeline.FrameBody
import Idealize.ShloMosaic.Lib.Tactic

set_option maxRecDepth 16384

noncomputable section

namespace Cert.EmbedNorm.Kern

open Cert.KernelIdeal Cert.KernelIdeal.Gen Idealize.ShloMosaic Idealize.ShloMosaic.TcCoe Idealize.ShloMosaic.ValueIdx
open Idealize.SL.Sem Cert.EmbedNorm

theorem hz2 : (![0, 0] : Fin 2 → Nat) = fun _ => 0 := funext fun a => by fin_cases a <;> rfl

/-- What the body leaves in the [32, 1028, 128] output block, as one function of the block's index `(r, f, d)`: line `f` of the
    embedding of batch row `r` of the point's block, normalised, at coordinate `d`. -/
def blockFn (x0 : Vec Ideal S32x1028 .f32) (x1 x2 : Vec Ideal S1028x128 .f32) (x3 x4 : Vec Ideal S1x128 .f32) :
    S32x1028x128.Idx → EReal :=
  fun y => rowNorm (embRow (x0 (ix2 (y 0) (y 1))) x1 x2 (y 1)) (fun k => x3 (ix2 (0 : Fin 1) k)) (fun k => x4 (ix2 (0 : Fin 1) k)) (y 2)

section AnyF
variable {F : FTy → Type} [FloatOps F]

/-- ONE TRIP'S STORES: a single store, at the trip's offset, of the payload of the row loaded at the trip's offset. -/
theorem trip_piece (𝒱 : Variants) (c : Dev nD) (bd : Option 𝒱.V) (i : grid0.Coords) (arg1 : Memref sig .tc .vmem S32x1028 .f32) (harg1 : arg1.IsWhole) (arg2 : Memref sig .tc .vmem S1028x128 .f32) (harg2 : arg2.IsWhole) (arg3 : Memref sig .tc .vmem S1028x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x1028x128 .f32) (harg6 : arg6.IsWhole)
    (v0 v1 : Vec F S1028x128 .f32) (v2 v4 : Vec F S1x128 .f32) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 v0 v1 v2 v4 X_arg1 k
      = ([⟨Rect.unit (s := S32x1028x128) (k0_off2 k) S1x1028x128.size (k0_off2_inb k),
          k0_pay1 v0 v1 v2 v4 (View.readAt (Elt F) arg1.view (Rect.unit (s := S32x1028) (k0_off1 k) S1x1028.size (k0_off1_inb k)).toLoadRect X_arg1)⟩] :
          List (View.Piece (Elt F) S32x1028x128 .f32)) := by
  unfold tripL_k0_t1 trip_k0_t1
  rfl

/-- THE WHOLE BODY'S STORES: the loop's stores after all its trips, over the four parameter blocks as loaded whole. -/
theorem run_pieces (c : Dev nD) (i : grid0.Coords) (arg1 : Memref sig .tc .vmem S32x1028 .f32) (harg1 : arg1.IsWhole) (arg2 : Memref sig .tc .vmem S1028x128 .f32) (harg2 : arg2.IsWhole) (arg3 : Memref sig .tc .vmem S1028x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x1028x128 .f32) (harg6 : arg6.IsWhole)
    (x0 : Vec F S32x1028 .f32) (x1 x2 : Vec F S1028x128 .f32) (x3 x4 : Vec F S1x128 .f32) :
    (kernelRun0_A (F := F) c i arg1 harg1 arg2 harg2 arg3 harg3 arg4 harg4 arg5 harg5 arg6 harg6 x0 x1 x2 x3 x4).1
      = pb_k0_t1 (F := F) Variants.none c none i arg1 harg1 arg2 harg2 arg3 harg3 arg4 harg4 arg5 harg5 arg6 harg6 x1 x2 x3 x4 (harg1.unread x0) k0_t1_loop.trips := by
  unfold kernelRun0_A
  dsimp only
  simp only [View.readAt_eq_ld, harg2.read_unread, harg3.read_unread, harg4.read_unread, harg5.read_unread,
    View.ld_unit_zero (S := S1028x128) hz2, View.ld_unit_zero (S := S1x128) hz2]

end AnyF

/-- Equal row entry, line and coordinate give equal normalised values. -/
theorem rowNorm_congr (x1 x2 : Vec Ideal S1028x128 .f32) (g b : Fin 128 → EReal) {a a' : EReal} {f f' : Fin 1028} {d d' : Fin 128}
    (ha : a = a') (hf : f = f') (hd : d = d') : rowNorm (embRow a x1 x2 f) g b d = rowNorm (embRow a' x1 x2 f') g b d' := by
  subst ha hf hd; rfl

/-- Trip `k`'s store is a block of `blockFn`: at its own index `(u, f, d)` it holds `blockFn` at the place `(k + u, f, d)`. -/
theorem piece_ok (arg1 : Memref sig .tc .vmem S32x1028 .f32) (harg1 : arg1.IsWhole)
    (x0 : Vec Ideal S32x1028 .f32) (x1 x2 : Vec Ideal S1028x128 .f32) (x3 x4 : Vec Ideal S1x128 .f32) (k : Fin k0_t1_loop.trips)
    (x : (Rect.unit (s := S32x1028x128) (k0_off2 k) S1x1028x128.size (k0_off2_inb k)).shape.Idx) :
    k0_pay1 (F := Ideal) x1 x2 x3 x4
        (View.readAt (Elt Ideal) arg1.view (Rect.unit (s := S32x1028) (k0_off1 k) S1x1028.size (k0_off1_inb k)).toLoadRect (harg1.unread x0)) x
      = blockFn x0 x1 x2 x3 x4 ((Rect.unit (s := S32x1028x128) (k0_off2 k) S1x1028x128.size (k0_off2_inb k)).emb x) := by
  obtain ⟨u, f, d, rfl⟩ : ∃ (u : Fin 1) (f : Fin 1028) (d : Fin 128), x = ix3 u f d := ⟨x 0, x 1, x 2, eq_ix3 x⟩
  rw [pay_at]
  unfold blockFn
  have hu : u.val = 0 := by omega
  have e2 : k0_off2 k = ![k.val, 0, 0] := k0_off2_eq k
  have e1 : k0_off1 k = ![k.val, 0] := k0_off1_eq k
  refine rowNorm_congr x1 x2 _ _ ?_ (Fin.ext ?_) (Fin.ext ?_)
  · rw [View.readAt_apply, harg1.read_unread]
    refine congrArg x0 (funext fun a => Fin.ext ?_)
    match a with
    | ⟨0, _⟩ =>
      show k0_off1 k 0 + 1 * 0 = k0_off2 k 0 + 1 * u.val
      rw [e1, e2, hu]; rfl
    | ⟨1, _⟩ =>
      show k0_off1 k 1 + 1 * f.val = k0_off2 k 1 + 1 * f.val
      rw [e1, e2]; rfl
  · show f.val = k0_off2 k 1 + 1 * f.val
    rw [e2]; show f.val = 0 + 1 * f.val; omega
  · show d.val = k0_off2 k 2 + 1 * d.val
    rw [e2]; show d.val = 0 + 1 * d.val; omega

/-- After any number of trips, every store made so far is a block of `blockFn`. -/
theorem pb_pieces (𝒱 : Variants) (c : Dev nD) (bd : Option 𝒱.V) (i : grid0.Coords) (arg1 : Memref sig .tc .vmem S32x1028 .f32) (harg1 : arg1.IsWhole) (arg2 : Memref sig .tc .vmem S1028x128 .f32) (harg2 : arg2.IsWhole) (arg3 : Memref sig .tc .vmem S1028x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x1028x128 .f32) (harg6 : arg6.IsWhole)
    (x0 : Vec Ideal S32x1028 .f32) (x1 x2 : Vec Ideal S1028x128 .f32) (x3 x4 : Vec Ideal S1x128 .f32) :
    ∀ n : ℕ, n ≤ k0_t1_loop.trips →
      ∀ p ∈ pb_k0_t1 (F := Ideal) 𝒱 c bd i arg1 harg1 arg2 harg2 arg3 harg3 arg4 harg4 arg5 harg5 arg6 harg6 x1 x2 x3 x4 (harg1.unread x0) n,
        ∀ x : p.1.shape.Idx, p.2 x = blockFn x0 x1 x2 x3 x4 (p.1.emb x)
  | 0, _, p, hp, _ => by
    rw [pb_k0_t1.eq_1] at hp
    exact absurd hp List.not_mem_nil
  | n + 1, hn, p, hp, x => by
    have hs := pb_k0_t1_succ (F := Ideal) 𝒱 c bd i arg1 harg1 arg2 harg2 arg3 harg3 arg4 harg4 arg5 harg5 arg6 harg6 x1 x2 x3 x4 (harg1.unread x0) ⟨n, hn⟩
    rw [show (⟨n, hn⟩ : Fin k0_t1_loop.trips).val + 1 = n + 1 from rfl] at hs
    rw [hs, trip_piece] at hp
    rcases List.mem_append.mp hp with h | h
    · obtain rfl := List.mem_singleton.mp h
      exact piece_ok arg1 harg1 x0 x1 x2 x3 x4 ⟨n, hn⟩ x
    · exact pb_pieces 𝒱 c bd i arg1 harg1 arg2 harg2 arg3 harg3 arg4 harg4 arg5 harg5 arg6 harg6 x0 x1 x2 x3 x4 n (Nat.le_of_succ_le hn) p h x

/-- AFTER THE BODY the output block holds `blockFn` of the point's input blocks, at every index. -/
theorem out_eq (c : Dev nD) (i : grid0.Coords) (arg1 : Memref sig .tc .vmem S32x1028 .f32) (harg1 : arg1.IsWhole) (arg2 : Memref sig .tc .vmem S1028x128 .f32) (harg2 : arg2.IsWhole) (arg3 : Memref sig .tc .vmem S1028x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x1028x128 .f32) (harg6 : arg6.IsWhole)
    (x0 : Vec Ideal S32x1028 .f32) (x1 x2 : Vec Ideal S1028x128 .f32) (x3 x4 : Vec Ideal S1x128 .f32) :
    out0_A_5 (F := Ideal) c i arg1 harg1 arg2 harg2 arg3 harg3 arg4 harg4 arg5 harg5 arg6 harg6 x0 x1 x2 x3 x4 = blockFn x0 x1 x2 x3 x4 := by
  unfold out0_A_5
  rw [View.read_writes_junk_eq_canon]
  funext y
  refine View.canon_apply_of_pieces (blockFn x0 x1 x2 x3 x4) _ ?_ y (cover0_A_5 c i arg1 harg1 arg2 harg2 arg3 harg3 arg4 harg4 arg5 harg5 arg6 harg6 x0 x1 x2 x3 x4 y)
  rw [run_pieces]
  exact pb_pieces Variants.none c none i arg1 harg1 arg2 harg2 arg3 harg3 arg4 harg4 arg5 harg5 arg6 harg6 x0 x1 x2 x3 x4 _ (Nat.le_refl _)

end Cert.EmbedNorm.Kern

end
-- ==== Proof.ArrayValue.lean ====
/-
  From the output blocks to the result array.

  Grid point `t` (of 32) works on batch rows `32 t … 32 t + 31`: its block of `x` is those rows, its other four windows are the
  whole parameter arrays (the two normalisation parameters as [1, 128] rows, which @main makes from the [128] arguments before the
  call), and its output block is rows `32 t … 32 t + 31` of the result. So `blockFn` of the point's input blocks is the
  specification's `result` of the argument arrays read through the point's output block; every point writes its block back,
  the 32 blocks tile the [1024, 1028, 128] array, and the array ends holding `result`.
-/
import proofs.«109697_j79302276153442_2_alg».proof.Proof.Gen.KernelIdeal.Value
import proofs.«109697_j79302276153442_2_alg».proof.Proof.BlockPieces
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.EmbedNorm.Kern

open Cert.KernelIdeal Cert.KernelIdeal.Gen Idealize.ShloMosaic Idealize.ShloMosaic.TcCoe Idealize.ShloMosaic.ValueIdx
open Idealize.SL.Sem Cert.EmbedNorm Idealize.ShloMosaic.StableHlo
open Idealize.ShloMosaic.Pipeline (Dat)

variable (m : (ℓ : Loc nD τ sig) → Buf (Elt Ideal) ℓ) (ρ : Dev nD → PrngReg)

/-- The printed index maps over the 32 grid points: the batch window and the output window move with the point along the
    leading axis; every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The result array: the specification of the five argument arrays as launched. -/
abbrev res (c : Dev nD) : Buf (Elt Ideal) ((c : Thread nD τ).loc main_v2) :=
  result (m ((c : Thread nD τ).loc main_arg0)) (m ((c : Thread nD τ).loc main_arg1)) (m ((c : Thread nD τ).loc main_arg2))
    (m ((c : Thread nD τ).loc main_arg3)) (m ((c : Thread nD τ).loc main_arg4))

/-! ## The input blocks as entries of the arguments -/

/-- The batch window's block at point `t` is rows `32 t … 32 t + 31` of `x`. -/
theorem iblk0_at (c : Dev nD) (t : Fin cfg0.N) (z : S32x1028.Idx) (i : S1024x1028.Idx)
    (h0 : (i 0).val = 32 * t.val + (z 0).val) (h1 : (i 1).val = (z 1).val) :
    (iblk m c 0 t : Vec Ideal S32x1028 .f32) z = (m ((c : Thread nD τ).loc main_arg0) : S1024x1028.Idx → EReal) i := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 32 + 1 * (z 0).val = (i 0).val; rw [e0, h0]; omega
  | ⟨1, _⟩ => show win0_0.index t 1 * 1028 + 1 * (z 1).val = (i 1).val; rw [e1, h1]; omega

/-- The weight window's block is the whole weight array, at every point. -/
theorem iblk1_eq (c : Dev nD) (t : Fin cfg0.N) :
    (iblk m c 1 t : Vec Ideal S1028x128 .f32) = (m ((c : Thread nD τ).loc main_arg1) : S1028x128.Idx → EReal) := by
  obtain ⟨-, -, e0, e1, -⟩ := idx_facts t
  funext z
  unfold iblk
  rw [View.read_apply]
  show V m c main_arg1 _ = m (c.tc.loc main_arg1) _
  rw [V_main_arg1]
  congr 1
  funext a
  apply Fin.ext
  match a with
  | ⟨0, _⟩ => show win0_1.index t 0 * 1028 + 1 * (z 0).val = (z 0).val; rw [e0]; omega
  | ⟨1, _⟩ => show win0_1.index t 1 * 128 + 1 * (z 1).val = (z 1).val; rw [e1]; omega

/-- The bias window's block is the whole bias array, at every point. -/
theorem iblk2_eq (c : Dev nD) (t : Fin cfg0.N) :
    (iblk m c 2 t : Vec Ideal S1028x128 .f32) = (m ((c : Thread nD τ).loc main_arg2) : S1028x128.Idx → EReal) := by
  obtain ⟨-, -, -, -, e0, e1, -⟩ := idx_facts t
  funext z
  unfold iblk
  rw [View.read_apply]
  show V m c main_arg2 _ = m (c.tc.loc main_arg2) _
  rw [V_main_arg2]
  congr 1
  funext a
  apply Fin.ext
  match a with
  | ⟨0, _⟩ => show win0_2.index t 0 * 1028 + 1 * (z 0).val = (z 0).val; rw [e0]; omega
  | ⟨1, _⟩ => show win0_2.index t 1 * 128 + 1 * (z 1).val = (z 1).val; rw [e1]; omega

/-- Before the call @main views the scale parameters [128] as a row [1, 128]. -/
theorem V_scale (c : Dev nD) : (V m c main_v0 : S1x128.Idx → EReal)
    = shapeCast S1x128 (m ((c : Thread nD τ).loc main_arg3) : S128.Idx → EReal) shapeCasts_S128_S1x128 := by
  dsimp only [V, hostOps0]; after_results; rfl

/-- And the shift parameters likewise. -/
theorem V_shift (c : Dev nD) : (V m c main_v1 : S1x128.Idx → EReal)
    = shapeCast S1x128 (m ((c : Thread nD τ).loc main_arg4) : S128.Idx → EReal) shapeCasts_S128_S1x128 := by
  dsimp only [V, hostOps0]; after_results; rfl

/-- The scale window's block at `(0, k)` is entry `k` of the scale argument. -/
theorem iblk3_at (c : Dev nD) (t : Fin cfg0.N) (k : Fin 128) :
    (iblk m c 3 t : Vec Ideal S1x128 .f32) (ix2 (0 : Fin 1) k) = (m ((c : Thread nD τ).loc main_arg3) : S128.Idx → EReal) (ix1 k) := by
  obtain ⟨-, -, -, -, -, -, e0, e1, -⟩ := idx_facts t
  unfold iblk
  rw [View.read_apply]
  show (V m c main_v0 : S1x128.Idx → EReal) _ = _
  rw [V_scale]
  refine Eq.trans (congrArg _ (funext fun a => Fin.ext ?_)) (shapeCast_a_1a_apply _ _ (0 : Fin 1) k)
  match a with
  | ⟨0, _⟩ => show win0_3.index t 0 * 1 + 1 * 0 = 0; rw [e0]
  | ⟨1, _⟩ => show win0_3.index t 1 * 128 + 1 * k.val = k.val; rw [e1]; omega

/-- The shift window's block at `(0, k)` is entry `k` of the shift argument. -/
theorem iblk4_at (c : Dev nD) (t : Fin cfg0.N) (k : Fin 128) :
    (iblk m c 4 t : Vec Ideal S1x128 .f32) (ix2 (0 : Fin 1) k) = (m ((c : Thread nD τ).loc main_arg4) : S128.Idx → EReal) (ix1 k) := by
  obtain ⟨-, -, -, -, -, -, -, -, e0, e1, -⟩ := idx_facts t
  unfold iblk
  rw [View.read_apply]
  show (V m c main_v1 : S1x128.Idx → EReal) _ = _
  rw [V_shift]
  refine Eq.trans (congrArg _ (funext fun a => Fin.ext ?_)) (shapeCast_a_1a_apply _ _ (0 : Fin 1) k)
  match a with
  | ⟨0, _⟩ => show win0_4.index t 0 * 1 + 1 * 0 = 0; rw [e0]
  | ⟨1, _⟩ => show win0_4.index t 1 * 128 + 1 * k.val = k.val; rw [e1]; omega

/-! ## A block of `blockFn` is a block of `result` -/

/-- `blockFn` of blocks that are the arguments' entries is `result` of the arguments, at matching places. -/
theorem blockFn_eq_result (X : (⟨2, ![1024, 1028]⟩ : Shape).Idx → EReal) (W B : (⟨2, ![1028, 128]⟩ : Shape).Idx → EReal)
    (g bt : (⟨1, ![128]⟩ : Shape).Idx → EReal)
    (x0 : Vec Ideal S32x1028 .f32) (x1 x2 : Vec Ideal S1028x128 .f32) (x3 x4 : Vec Ideal S1x128 .f32)
    (y : S32x1028x128.Idx) (i : (⟨3, ![1024, 1028, 128]⟩ : Shape).Idx)
    (h1 : (y 1).val = (i 1).val) (h2 : (y 2).val = (i 2).val)
    (hx : x0 (ix2 (y 0) (y 1)) = X (ix2 (i 0) (i 1))) (hW : x1 = W) (hB : x2 = B)
    (hg : ∀ k : Fin 128, x3 (ix2 (0 : Fin 1) k) = g (ix1 k)) (hbt : ∀ k : Fin 128, x4 (ix2 (0 : Fin 1) k) = bt (ix1 k)) :
    blockFn x0 x1 x2 x3 x4 y = result X W B g bt i := by
  subst hW hB
  unfold blockFn result resultAt
  rw [hx, funext hg, funext hbt]
  exact rowNorm_congr _ _ _ _ rfl (Fin.ext h1) (Fin.ext h2)

/-- WHAT POINT `t` WRITES BACK is block `t` of the result array. -/
theorem flushed_eq (c : Dev nD) (t : Fin cfg0.N) :
    (dats m 0 c).flushed 5 t = ((cfg0.win 5).blk t).view.read (Elt Ideal) (res m c) := by
  rw [Cert.KernelIdeal.Value.flushed5_A, out_eq c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)]
  obtain ⟨-, -, -, -, -, -, -, -, -, -, e0, e1, e2⟩ := idx_facts t
  funext y
  show blockFn (iblk m c 0 t) (iblk m c 1 t) (iblk m c 2 t) (iblk m c 3 t) (iblk m c 4 t) y
    = res m c (((cfg0.win 5).blk t).view.emb y)
  refine blockFn_eq_result _ _ _ _ _ (iblk m c 0 t) (iblk m c 1 t) (iblk m c 2 t) (iblk m c 3 t) (iblk m c 4 t) y
    (((cfg0.win 5).blk t).view.emb y) ?_ ?_ ?_ (iblk1_eq m c t) (iblk2_eq m c t) (iblk3_at m c t) (iblk4_at m c t)
  · show (y 1).val = win0_5.index t 1 * 1028 + 1 * (y 1).val
    rw [e1]; omega
  · show (y 2).val = win0_5.index t 2 * 128 + 1 * (y 2).val
    rw [e2]; omega
  · refine iblk0_at m c t _ _ ?_ ?_
    · show win0_5.index t 0 * 32 + 1 * (y 0).val = 32 * t.val + (y 0).val
      rw [e0]; omega
    · show win0_5.index t 1 * 1028 + 1 * (y 1).val = (y 1).val
      rw [e1]; omega

/-! ## The blocks tile the array -/

/-- An index of the result array is in point `t`'s block iff each coordinate is in the block's range on its axis. -/
theorem mem_blk (t : Fin cfg0.N) (i : S1024x1028x128.Idx) :
    i ∈ ((cfg0.win 5).blk t).view.set ↔ ∀ a : Fin 3, win0_5.index t a * S32x1028x128.size a ≤ (i a).val
      ∧ (i a).val < win0_5.index t a * S32x1028x128.size a + S32x1028x128.size a := by
  show i ∈ ((View.whole main_v2).slice (win0_5.rect t)).set ↔ _
  rw [View.set_slice_whole, Rect.mem_set_unit]
  exact Iff.rfl

/-- Batch row `r` is in the block of point `r / 32`. -/
theorem cover (i : S1024x1028x128.Idx) :
    ∃ t : Fin cfg0.N, (cfg0.win 5).flush t = true ∧ i ∈ ((cfg0.win 5).blk t).view.set := by
  have hN : cfg0.N = 32 := N_0
  have hi0 : (i 0).val < 1024 := (i 0).isLt
  have hi1 : (i 1).val < 1028 := (i 1).isLt
  have hi2 : (i 2).val < 128 := (i 2).isLt
  obtain ⟨t, ht⟩ : ∃ t : Fin cfg0.N, t.val = (i 0).val / 32 := ⟨⟨(i 0).val / 32, by rw [hN]; omega⟩, rfl⟩
  obtain ⟨-, -, -, -, -, -, -, -, -, -, e0, e1, e2⟩ := idx_facts t
  refine ⟨t, flush0_5 t, ?_⟩
  rw [mem_blk]
  intro a
  match a with
  | ⟨0, _⟩ =>
    show win0_5.index t 0 * 32 ≤ (i 0).val ∧ (i 0).val < win0_5.index t 0 * 32 + 32
    rw [e0, ht]; omega
  | ⟨1, _⟩ =>
    show win0_5.index t 1 * 1028 ≤ (i 1).val ∧ (i 1).val < win0_5.index t 1 * 1028 + 1028
    rw [e1]; omega
  | ⟨2, _⟩ =>
    show win0_5.index t 2 * 128 ≤ (i 2).val ∧ (i 2).val < win0_5.index t 2 * 128 + 128
    rw [e2]; omega

/-- THE RESULT ARRAY after the run is the specification of the arguments. -/
theorem final (c : Dev nD) : (dats m 0 c).arrAt 5 cfg0.N = res m c :=
  (dats m 0 c).arrAt_eq_of_cover 5 (res m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.EmbedNorm.Kern

end
-- ==== Proof.lean ====
/-
  Per-feature embedding followed by layer normalisation: the kernel against its reference, over the extended reals.

  Both programs compute, for batch row `r`, feature `f` and coordinate `d`, the number
  `(e d − μ) · rsqrt (σ² + ε) · γ d + β d`, where `e k = x (r, f) · W (f, k) + b (f, k)` over the 128 coordinates `k`,
  `μ = (Σ e) / 128` and `σ² = (Σ (e − μ)²) / 128` (`EmbedNorm.result`, Proof/Spec.lean). They apply the same operations in the
  same order with the same two literals, so no algebraic law is used beyond reading each side's two sums as sums over the 128
  coordinates (the reference's from the initial value 0), and the precondition is never opened.

  The reference forms everything on the whole [1024, 1028, 128] array (Proof/RefResult.lean). The kernel splits the batch into
  32 blocks of 32 rows, one per grid point, and at each point loops over the block's rows, each trip storing one normalised
  [1028, 128] tile (Proof/RowPayload.lean: the tile at an index; Proof/BlockPieces.lean: the 32 stores are blocks of one function of
  the output block's index; Proof/ArrayValue.lean: the 32 output blocks tile the result array). The kernel is its own idealisation
  (no rewrite was applied), so the fourth conjunct is `True`.
-/
import proofs.«109697_j79302276153442_2_alg».proof.Defs
import proofs.«109697_j79302276153442_2_alg».proof.Proof.Gen.Kernel
import proofs.«109697_j79302276153442_2_alg».proof.Proof.Gen.Kernel.Skeleton
import proofs.«109697_j79302276153442_2_alg».proof.Proof.Gen.Kernel.Loops
import proofs.«109697_j79302276153442_2_alg».proof.Proof.Gen.Kernel.Launch
import proofs.«109697_j79302276153442_2_alg».proof.Proof.Gen.Kernel.Points
import proofs.«109697_j79302276153442_2_alg».proof.Proof.Gen.Kernel.Frame
import proofs.«109697_j79302276153442_2_alg».proof.Proof.Gen.KernelIdeal
import proofs.«109697_j79302276153442_2_alg».proof.Proof.Gen.KernelIdeal.Skeleton
import proofs.«109697_j79302276153442_2_alg».proof.Proof.Gen.KernelIdeal.Loops
import proofs.«109697_j79302276153442_2_alg».proof.Proof.Gen.KernelIdeal.Launch
import proofs.«109697_j79302276153442_2_alg».proof.Proof.Gen.KernelIdeal.Points
import proofs.«109697_j79302276153442_2_alg».proof.Proof.Gen.KernelIdeal.Frame
import proofs.«109697_j79302276153442_2_alg».proof.Proof.Gen.ReferenceIdeal
import proofs.«109697_j79302276153442_2_alg».proof.Proof.Gen.Pre_finite_inputs
import proofs.«109697_j79302276153442_2_alg».proof.Proof.Gen.KernelIdeal.Value
import proofs.«109697_j79302276153442_2_alg».proof.Proof.Gen.ReferenceIdeal.Run
import proofs.«109697_j79302276153442_2_alg».proof.Proof.Gen.ReferenceIdeal.Read
import proofs.«109697_j79302276153442_2_alg».proof.Proof.RefResult
import proofs.«109697_j79302276153442_2_alg».proof.Proof.ArrayValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the result array at `EmbedNorm.result` of the
    arguments: the kernel block by block, the reference operation by operation. -/
theorem algebraic : Cert.algebraic_KernelIdeal_ReferenceIdeal := by
  intro m ρ m' ρ' _ hagree
  refine ⟨fun c => Cert.EmbedNorm.Kern.res m c, Cert.EmbedNorm.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.EmbedNorm.Ref.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
